-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 42
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x64, .f32⟩
  | .hbm, ⟨36, _⟩ => ⟨S_, .f32⟩
  | .hbm, ⟨37, _⟩ => ⟨S100000x64, .f32⟩
  | .hbm, ⟨38, _⟩ => ⟨S1700000x1, .i32⟩
  | .hbm, ⟨39, _⟩ => ⟨S100000x64, .f32⟩
  | .hbm, ⟨40, _⟩ => ⟨S1x64, .f32⟩
  | .hbm, ⟨41, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RTerm.lean ====
/-
  The reference program's result, piece by piece.

  The reference builds the same source and target index vectors, degree and normalisation factor as the kernel's
  program, multiplies x by the weights once for all nodes, and then, per edge, gathers the product's row at the edge's
  source and scales it by the product of the two end points' factors (each gathered at an index vector whose negative
  entries are first moved up by N); the scaled rows are added at each edge's target into a zero table, the bias is
  added to every row, and the result goes through 1 / (1 + exp (−·)). The run's composed term is exactly these pieces
  put together.
-/
import proofs.«176008_j59442347377115_2_alg».proof.Proof.RefRun
import Idealize.ShloMosaic.PureOps.Ideal.Laws

set_option maxRecDepth 16384

noncomputable section

namespace Cert.ReferenceIdeal.Term

open Cert.ReferenceIdeal Cert.ReferenceIdeal.Gen
open Idealize.ShloMosaic Idealize.ShloMosaic.TcCoe Idealize.SL.Sem Idealize.ShloMosaic.StableHlo

/-- The edges' sources: row 0 of the edge list, then the nodes themselves. -/
def src (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The edges' targets: row 1 of the edge list, then the nodes themselves. -/
def dst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A node's degree: ones added at every edge's target. -/
def deg (d : IVec S1700000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- The normalisation factor: 1/√deg where the degree is positive, 0 elsewhere. -/
def dinv (d : IVec S1700000 32) : FVec Ideal S100000 .f32 :=
  select (cmpf .ogt (deg d) (broadcastInDim S100000 ![] bcast_S_S100000 (constant (F := Ideal) S_ .f32 0x00000000#32)))
    (Host.rsqrt (deg d))
    (broadcastInDim S100000 ![] bcast_S_S100000 (id (constant (F := Ideal) S_ .f32 0x00000000#32)))

/-- A possibly negative index moved up by the number of nodes. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An edge's weight: the product of its end points' factors. -/
def norm (s d : IVec S1700000 32) : FVec Ideal S1700000 .f32 :=
  mulf (Host.gather gather_S100000_S1700000x1_S1700000_n_0_n_n_0_1_1 (dinv d) (broadcastInDim S1700000x1 ![0] bcast_S1700000_S1700000x1_0 (wrap s)))
    (Host.gather gather_S100000_S1700000x1_S1700000_n_0_n_n_0_1_1 (dinv d) (broadcastInDim S1700000x1 ![0] bcast_S1700000_S1700000x1_0 (wrap d)))

/-- An edge's message: the product's row at the edge's source, scaled by the edge's weight. -/
def msgs (x : FVec Ideal S100000x128 .f32) (w : FVec Ideal S128x64 .f32) (s d : IVec S1700000 32) : FVec Ideal S1700000x64 .f32 :=
  mulf (Host.gather gather_S100000x64_S1700000x1_S1700000x64_1_0_n_n_0_1_164
      (Host.dotGeneral dot_S100000x128_S128x64_S100000x64_1_0_0_1_n_n none x w)
      (broadcastInDim S1700000x1 ![0] bcast_S1700000_S1700000x1_0 (wrap s)))
    (broadcastInDim S1700000x64 ![0, 1] bcast_S1700000x1_S1700000x64_0_1
      (broadcastInDim S1700000x1 ![0] bcast_S1700000_S1700000x1_0 (norm s d)))

/-- The messages added at the edges' targets into a zero table, plus the bias on every row. -/
def logits (x : FVec Ideal S100000x128 .f32) (w : FVec Ideal S128x64 .f32) (b : FVec Ideal S64 .f32) (s d : IVec S1700000 32) :
    FVec Ideal S100000x64 .f32 :=
  addf (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 d)
      (msgs x w s d))
    (broadcastInDim S100000x64 ![0, 1] bcast_S1x64_S100000x64_0_1 (broadcastInDim S1x64 ![1] bcast_S64_S1x64_1 b))

/-- The logits through 1 / (1 + exp (−·)). -/
def out (x : FVec Ideal S100000x128 .f32) (ei : IVec S2x1600000 32) (w : FVec Ideal S128x64 .f32) (b : FVec Ideal S64 .f32) :
    FVec Ideal S100000x64 .f32 :=
  Host.divf (broadcastInDim S100000x64 ![] bcast_S_S100000x64 (constant (F := Ideal) S_ .f32 0x3F800000#32))
    (addf (broadcastInDim S100000x64 ![] bcast_S_S100000x64 (constant (F := Ideal) S_ .f32 0x3F800000#32))
      (Host.exp (Host.negf (logits x w b (src ei) (dst ei)))))

set_option maxHeartbeats 4000000 in
/-- The run's composed term is these pieces put together. -/
theorem res_eq (m : (ℓ : Loc nD τ sig) → Buf (Elt Ideal) ℓ) (c : Dev nD) :
    Cert.ReferenceIdeal.Value.res_main_v52 (F := Ideal) m c
      = out (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v52 out logits msgs norm dinv deg wrap src dst
  rfl

end Cert.ReferenceIdeal.Term

end
-- ==== Proof.KRun.lean ====
/-
  The two-region program's run with its result array named.

  The program runs six segments in order: three stretches of host operations, the first pipelined region, a fourth
  stretch of host operations, the second pipelined region. After the last segment every unscoped buffer of a core holds
  the contents obtained by folding the segments over the launch memory (host operations applied in order; a region's
  arrays at what its write-backs leave). The frame statement only reads the argument arrays back out of that fold; here
  the result array is read back as well, so the value of the program is the fold's contents at the result buffer.
-/
import proofs.«176008_j59442347377115_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the fold's contents at its
    buffer and the argument arrays end as launched. -/
theorem run_named : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Named

end
-- ==== Proof.KHost.lean ====
/-
  The host operations around the two regions, as functions of what they read.

  Before the first region the program builds, from the edge list, the source and target index vectors (the edge list's
  two rows, each followed by 0 … N−1 for the self-loops), counts the edges into every node (the degree, a sum of ones
  added at each edge's target), and turns the degree into the normalisation factor 1/√deg (0 where the degree is not
  positive), stood up as a column. Between the regions it gathers, for every edge, the row of the scaled product at
  the edge's source (a negative source index first moved up by N) and adds the gathered rows at each edge's target
  into a zero table; and it lays the bias out as a one-row matrix. Each stretch of operations is read here as these
  functions applied to the contents the stretch starts from, whatever those contents are.
-/
import proofs.«176008_j59442347377115_2_alg».proof.Proof.Gen.KernelIdeal.Frame
import Idealize.ShloMosaic.Lib.StableHlo.Run
import Idealize.ShloMosaic.PureOps.Ideal.Laws

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

/-- The edges' sources: row 0 of the edge list, then the nodes themselves. -/
def src (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The edges' targets: row 1 of the edge list, then the nodes themselves. -/
def dst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- A node's degree: ones added at every edge's target. -/
def deg (d : IVec S1700000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 d)
    (broadcastInDim S1700000 ![] bcast_S_S1700000 (constant (F := Ideal) S_ .f32 0x3F800000#32))

/-- The normalisation factor: 1/√deg where the degree is positive, 0 elsewhere. -/
def dinv (d : IVec S1700000 32) : FVec Ideal S100000 .f32 :=
  select (cmpf .ogt (deg d) (broadcastInDim S100000 ![] bcast_S_S100000 (constant (F := Ideal) S_ .f32 0x00000000#32)))
    (Host.rsqrt (deg d))
    (broadcastInDim S100000 ![] bcast_S_S100000 (id (constant (F := Ideal) S_ .f32 0x00000000#32)))

/-- The factor as a column. -/
def dcol (d : IVec S1700000 32) : FVec Ideal S100000x1 .f32 :=
  shapeCast S100000x1 (dinv d) shapeCasts_S100000_S100000x1

/-- A possibly negative index moved up by the number of nodes. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The rows of a table gathered at the edges' sources and added at the edges' targets into a zero table. -/
def agg (h : FVec Ideal S100000x64 .f32) (s d : IVec S1700000 32) : FVec Ideal S100000x64 .f32 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (Host.gather gather_S100000x64_S1700000x1_S1700000x64_1_0_n_n_0_1_164 h
      (broadcastInDim S1700000x1 ![0] bcast_S1700000_S1700000x1_0 (wrap s)))

/-- The bias as a one-row matrix. -/
def brow (b : FVec Ideal S64 .f32) : FVec Ideal S1x64 .f32 :=
  shapeCast S1x64 b shapeCasts_S64_S1x64

section
variable (Wv : Valuation τ sig (Elt Ideal))

/-- The contents after the three stretches before the first region. -/
abbrev pre : Valuation τ sig (Elt Ideal) :=
  StableHlo.after hostOps0_2 (StableHlo.after hostOps0_1 (StableHlo.after hostOps0 Wv))

set_option maxHeartbeats 4000000 in
theorem pre_src : pre Wv (Proc.devRef .tc main_v3) = src (Wv (Proc.devRef .tc main_arg1)) := by
  simp only [pre, hostOps0, hostOps0_1, hostOps0_2]
  after_results
  rfl

set_option maxHeartbeats 4000000 in
theorem pre_dst : pre Wv (Proc.devRef .tc main_v6) = dst (Wv (Proc.devRef .tc main_arg1)) := by
  simp only [pre, hostOps0, hostOps0_1, hostOps0_2]
  after_results
  rfl

set_option maxHeartbeats 4000000 in
/-- The first stretch leaves the comparison of the degree with zero, -/
theorem first_cmp : StableHlo.after hostOps0 Wv (Proc.devRef .tc main_v12)
    = cmpf .ogt (deg (dst (Wv (Proc.devRef .tc main_arg1))))
        (broadcastInDim S100000 ![] bcast_S_S100000 (constant (F := Ideal) S_ .f32 0x00000000#32)) := by
  simp only [hostOps0]
  after_results
  rfl

set_option maxHeartbeats 4000000 in
/-- the inverse root of the degree, -/
theorem first_rsqrt : StableHlo.after hostOps0 Wv (Proc.devRef .tc main_v13)
    = Host.rsqrt (deg (dst (Wv (Proc.devRef .tc main_arg1)))) := by
  simp only [hostOps0]
  after_results
  rfl

set_option maxHeartbeats 4000000 in
/-- and a zero. -/
theorem first_zero : StableHlo.after hostOps0 Wv (Proc.devRef .tc main_cst_2)
    = constant (F := Ideal) S_ .f32 0x00000000#32 := by
  simp only [hostOps0]
  after_results

set_option maxHeartbeats 4000000 in
/-- The second stretch selects between them. -/
theorem second_select : StableHlo.after hostOps0_1 Wv (Proc.devRef .tc main_v14)
    = (select (Wv (Proc.devRef .tc main_v12)) (Wv (Proc.devRef .tc main_v13))
        (broadcastInDim S100000 ![] bcast_S_S100000 (id (Wv (Proc.devRef .tc main_cst_2)))) : FVec Ideal S100000 .f32) := by
  simp only [hostOps0_1]
  after_results
  rfl

set_option maxHeartbeats 4000000 in
/-- The third stands the result up as a column. -/
theorem third_column : StableHlo.after hostOps0_2 Wv (Proc.devRef .tc main_v15)
    = shapeCast S100000x1 (Wv (Proc.devRef .tc main_v14)) shapeCasts_S100000_S100000x1 := by
  simp only [hostOps0_2]
  after_results
  rfl

theorem pre_dcol : pre Wv (Proc.devRef .tc main_v15) = dcol (dst (Wv (Proc.devRef .tc main_arg1))) := by
  unfold dcol dinv
  rw [show pre Wv = StableHlo.after hostOps0_2 (StableHlo.after hostOps0_1 (StableHlo.after hostOps0 Wv)) from rfl,
    third_column, second_select, first_cmp, first_rsqrt, first_zero]

set_option maxHeartbeats 4000000 in
theorem pre_arg0 : pre Wv (Proc.devRef .tc main_arg0) = Wv (Proc.devRef .tc main_arg0) := by
  simp only [pre, hostOps0, hostOps0_1, hostOps0_2]
  after_results

set_option maxHeartbeats 4000000 in
theorem pre_arg2 : pre Wv (Proc.devRef .tc main_arg2) = Wv (Proc.devRef .tc main_arg2) := by
  simp only [pre, hostOps0, hostOps0_1, hostOps0_2]
  after_results

set_option maxHeartbeats 4000000 in
theorem pre_arg3 : pre Wv (Proc.devRef .tc main_arg3) = Wv (Proc.devRef .tc main_arg3) := by
  simp only [pre, hostOps0, hostOps0_1, hostOps0_2]
  after_results

/-- The contents after the stretch between the regions. -/
abbrev mid : Valuation τ sig (Elt Ideal) := StableHlo.after hostOps1 Wv

set_option maxHeartbeats 4000000 in
theorem mid_agg : mid Wv (Proc.devRef .tc main_v26)
    = agg (Wv (Proc.devRef .tc main_v16)) (Wv (Proc.devRef .tc main_v3)) (Wv (Proc.devRef .tc main_v6)) := by
  simp only [mid, hostOps1]
  after_results
  rfl

set_option maxHeartbeats 4000000 in
theorem mid_dcol : mid Wv (Proc.devRef .tc main_v15) = Wv (Proc.devRef .tc main_v15) := by
  simp only [mid, hostOps1]
  after_results

set_option maxHeartbeats 4000000 in
theorem mid_brow : mid Wv (Proc.devRef .tc main_v27) = brow (Wv (Proc.devRef .tc main_arg3)) := by
  simp only [mid, hostOps1]
  after_results
  rfl

end

end Cert.KernelIdeal.HostVals

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«176008_j59442347377115_2_alg».proof.Proof.LibContract
import proofs.«176008_j59442347377115_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  The first pipelined region: a row-scaled matrix product, as one function of the arrays the region finds.

  The region walks the 100000 rows of x in 20 blocks of 5000 rows. At block t the body multiplies rows
  5000 t … 5000 t + 4999 of x by the whole weight matrix w (a product into a zero accumulator; the narrowing of both
  factors to a shorter float format is the identity on extended reals) and scales row p of the product by entry p of the
  block's column of d. So the block written back at point t is block t of the array
      scaled x w d (i, c) = (∑ k < 128, x (i, k) · w (k, c)) · d (i, 0),
  and since the 20 blocks tile the result array, the array ends holding that function whatever it held before.
-/
import proofs.«176008_j59442347377115_2_alg».proof.Proof.Gen.KernelIdeal.Frame
import proofs.«176008_j59442347377115_2_alg».proof.Proof.LibDenseVec
import proofs.«176008_j59442347377115_2_alg».proof.Proof.LibColumn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-- Row i of x times column c of w, scaled by the row's factor d (i, 0). -/
def scaled (x : S100000x128.Idx → EReal) (w : S128x64.Idx → EReal) (d : S100000x1.Idx → EReal) : S100000x64.Idx → EReal :=
  fun j => (∑ k : Fin 128, x (ix2 (j 0) k) * w (ix2 k (j 1))) * d (ix2 (j 0) (0 : Fin 1))

theorem scaled_apply (x : S100000x128.Idx → EReal) (w : S128x64.Idx → EReal) (d : S100000x1.Idx → EReal)
    (r : Fin 100000) (q : Fin 64) :
    scaled x w d (ix2 r q) = (∑ k : Fin 128, x (ix2 r k) * w (ix2 k q)) * d (ix2 r (0 : Fin 1)) := rfl

theorem hz : (![0, 0] : Fin 2 → Nat) = fun _ => 0 := funext fun a => by fin_cases a <;> rfl

/-- The body's product contracts the block's second axis with the weights' first. -/
theorem plain : DenseVec.Plain (n := 5000) (K := 128) (N := 64) dot_S5000x128_S128x64_S5000x64_1_0_0_1_n_n where
  rank := rfl
  size := fun _ => rfl
  lhs := rfl
  rhs := rfl
  row := fun j q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  col := fun j q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- What the body stores, at row p and column q of the block: the row of the x block times the column of the weights,
    scaled by the row's entry of the factor column. -/
theorem payload_apply (x0 : Vec Ideal S5000x128 .f32) (x1 : Vec Ideal S128x64 .f32) (x2 : Vec Ideal S5000x1 .f32)
    (p : Fin 5000) (q : Fin 64) :
    k0_pay1 (F := Ideal) x0 x1 x2 (ix2 p q) = (∑ k : Fin 128, x0 (ix2 p k) * x1 (ix2 k q)) * x2 (ix2 p (0 : Fin 1)) := by
  unfold k0_pay1
  refine (mulf_apply _ _ _).trans ?_
  refine congrArg₂ (· * ·) ?_ ?_
  · exact DenseVec.matmul_zero_ix2 plain none (truncf .bf16 x0 bitsLt_bf16_f32) (truncf .bf16 x1 bitsLt_bf16_f32) p q
  · refine (broadcastTo_a1_ab_apply _ broadcasts_S5000x1_S5000x64 p q).trans ?_
    rw [shapeCast_self]

/-- The printed index maps over the grid: x, the factor column and the result move down one block of rows per point,
    the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The x window's block at point t holds rows 5000 t … of x. -/
theorem xblock_apply (c : Dev nD) (t : Fin cfg0.N) (y : S5000x128.Idx) (k : S100000x128.Idx)
    (hk0 : (k 0).val = t.val * 5000 + (y 0).val) (hk1 : (k 1).val = (y 1).val) :
    (iblk0 V c 0 t : Vec Ideal S5000x128 .f32) y = (V c main_arg0 : S100000x128.Idx → EReal) k := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The weights' window holds the whole weight matrix at every point. -/
theorem wblock_apply (c : Dev nD) (t : Fin cfg0.N) (y : S128x64.Idx) :
    (iblk0 V c 1 t : Vec Ideal S128x64 .f32) y = (V c main_arg2 : S128x64.Idx → EReal) y := by
  obtain ⟨-, -, e0, e1, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- The factor column's block at point t holds entries 5000 t … of the column. -/
theorem dblock_apply (c : Dev nD) (t : Fin cfg0.N) (y : S5000x1.Idx) (k : S100000x1.Idx)
    (hk0 : (k 0).val = t.val * 5000 + (y 0).val) (hk1 : (k 1).val = (y 1).val) :
    (iblk0 V c 2 t : Vec Ideal S5000x1 .f32) y = (V c main_v15 : S100000x1.Idx → EReal) k := by
  obtain ⟨-, -, -, -, e0, e1, -⟩ := idx_facts t
  unfold iblk0
  rw [View.read_apply]
  show V c main_v15 _ = V c main_v15 _
  refine congrArg (V c main_v15) (funext fun a => Fin.ext ?_)
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- What point t writes back is block t of the scaled product of the arrays the region finds. -/
theorem flushed_eq (c : Dev nD) (t : Fin cfg0.N) :
    (dat0 V c).flushed 3 t
      = ((cfg0.win 3).blk t).view.read (Elt Ideal) (scaled (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨-, -, -, -, -, -, e0, e1⟩ := idx_facts t
  have hN : cfg0.N = 20 := N_0
  have ht : t.val < 20 := hN ▸ t.isLt
  funext y
  obtain ⟨p, q, rfl⟩ : ∃ (p : Fin 5000) (q : Fin 64), y = ix2 p q := ⟨y 0, y 1, eq_ix2 y⟩
  have hr : t.val * 5000 + p.val < 100000 := by have := p.isLt; omega
  have hemb : ((cfg0.win 3).blk t).view.emb (ix2 p q) = (ix2 (⟨t.val * 5000 + p.val, hr⟩ : Fin 100000) q : S100000x64.Idx) := by
    funext a; apply Fin.ext
    match a with
    | ⟨0, _⟩ => show win0_3.index t (0 : Fin 2) * 5000 + 1 * p.val = t.val * 5000 + p.val; rw [e0]; omega
    | ⟨1, _⟩ => show win0_3.index t (1 : Fin 2) * 64 + 1 * q.val = q.val; rw [e1]; omega
  rw [View.read_apply]
  show k0_pay1 (F := Ideal) (iblk0 V c 0 t) (iblk0 V c 1 t) (iblk0 V c 2 t) (ix2 p q) = scaled _ _ _ (((cfg0.win 3).blk t).view.emb (ix2 p q))
  rw [hemb, scaled_apply]
  refine (payload_apply (iblk0 V c 0 t) (iblk0 V c 1 t) (iblk0 V c 2 t) p q).trans ?_
  refine congrArg₂ (· * ·) (Finset.sum_congr rfl fun k _ => congrArg₂ (· * ·) ?_ ?_) ?_
  · exact xblock_apply V c t (ix2 p k) (ix2 ⟨t.val * 5000 + p.val, hr⟩ k) rfl rfl
  · exact wblock_apply V c t (ix2 k q)
  · exact dblock_apply V c t (ix2 p (0 : Fin 1)) (ix2 ⟨t.val * 5000 + p.val, hr⟩ (0 : Fin 1)) rfl rfl

/-- An index of the result array is in point t's block iff its row is among the block's 5000 rows. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- The 20 blocks tile the result array: row r is in the block of point r / 5000. -/
theorem cover (i : S100000x64.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  refine ⟨⟨(i 0).val / 5000, by rw [hN]; omega⟩, flush0_3 _, ?_⟩
  rw [mem_blk]
  obtain ⟨-, -, -, -, -, -, e0, e1⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e1]; omega

/-- The result array after the region: the scaled product of the arrays the region finds. -/
theorem final (c : Dev nD) :
    (dat0 V c).arrAt 3 cfg0.N = scaled (V c main_arg0) (V c main_arg2) (V c main_v15) :=
  (dat0 V c).arrAt_eq_of_cover 3 (scaled (V c main_arg0) (V c main_arg2) (V c main_v15)) (fun t _ => flushed_eq V c t) cover

end

end Cert.KernelIdeal.Region0

end
-- ==== Proof.Region1.lean ====
/-
  The second pipelined region: scale, add the bias, squash — as one function of the arrays the region finds.

  The region walks the 100000 rows of the aggregated table in 20 blocks of 5000 rows. At block t the body scales row p
  of the block by entry p of the block's column of d, adds the bias row (the same one-row array at every point) and
  applies the logistic function. So the block written back at point t is block t of the array
      squashed a d b (i, c) = logistic (a (i, c) · d (i, 0) + b (0, c)),
  and since the 20 blocks tile the result array, the array ends holding that function whatever it held before.
-/
import proofs.«176008_j59442347377115_2_alg».proof.Proof.Gen.KernelIdeal.Frame
import proofs.«176008_j59442347377115_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-- Entry (i, c) of the table scaled by the row's factor, shifted by the column's bias, through the logistic function. -/
def squashed (a : S100000x64.Idx → EReal) (d : S100000x1.Idx → EReal) (b : S1x64.Idx → EReal) : S100000x64.Idx → EReal :=
  fun j => Ideal.logistic (a j * d (ix2 (j 0) (0 : Fin 1)) + b (ix2 (0 : Fin 1) (j 1)))

theorem squashed_apply (a : S100000x64.Idx → EReal) (d : S100000x1.Idx → EReal) (b : S1x64.Idx → EReal)
    (r : Fin 100000) (q : Fin 64) :
    squashed a d b (ix2 r q) = Ideal.logistic (a (ix2 r q) * d (ix2 r (0 : Fin 1)) + b (ix2 (0 : Fin 1) q)) := rfl

theorem hz : (![0, 0] : Fin 2 → Nat) = fun _ => 0 := funext fun a => by fin_cases a <;> rfl

/-- What the body stores, at row p and column q of the block. -/
theorem payload_apply (x0 : Vec Ideal S5000x64 .f32) (x1 : Vec Ideal S5000x1 .f32) (x2 : Vec Ideal S1x64 .f32)
    (p : Fin 5000) (q : Fin 64) :
    k1_pay1 (F := Ideal) x0 x1 x2 (ix2 p q)
      = Ideal.logistic (x0 (ix2 p q) * x1 (ix2 p (0 : Fin 1)) + x2 (ix2 (0 : Fin 1) q)) := by
  unfold k1_pay1
  show Ideal.logistic (addf (F := Ideal) _ _ (ix2 p q)) = _
  refine congrArg Ideal.logistic ?_
  refine (addf_apply _ _ _).trans ?_
  refine congrArg₂ (· + ·) ?_ ?_
  · refine (mulf_apply _ _ _).trans ?_
    refine congrArg₂ (· * ·) ?_ ?_
    · rw [shapeCast_self]
    · refine (broadcastTo_a1_ab_apply _ broadcasts_S5000x1_S5000x64 p q).trans ?_
      rw [shapeCast_self]
  · refine (broadcastTo_1b_ab_apply _ broadcasts_S1x64_S5000x64 p q).trans ?_
    rw [shapeCast_self]

/-- The printed index maps over the grid: the table, the factor column and the result move down one block of rows per
    point, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The table window's block at point t holds rows 5000 t … of the table. -/
theorem ablock_apply (c : Dev nD) (t : Fin cfg1.N) (y : S5000x64.Idx) (k : S100000x64.Idx)
    (hk0 : (k 0).val = t.val * 5000 + (y 0).val) (hk1 : (k 1).val = (y 1).val) :
    (iblk1 V c 0 t : Vec Ideal S5000x64 .f32) y = (V c main_v26 : S100000x64.Idx → EReal) k := by
  obtain ⟨e0, e1, -⟩ := idx_facts t
  unfold iblk1
  rw [View.read_apply]
  show V c main_v26 _ = V c main_v26 _
  refine congrArg (V c main_v26) (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- The factor column's block at point t holds entries 5000 t … of the column. -/
theorem dblock_apply (c : Dev nD) (t : Fin cfg1.N) (y : S5000x1.Idx) (k : S100000x1.Idx)
    (hk0 : (k 0).val = t.val * 5000 + (y 0).val) (hk1 : (k 1).val = (y 1).val) :
    (iblk1 V c 1 t : Vec Ideal S5000x1 .f32) y = (V c main_v15 : S100000x1.Idx → EReal) k := by
  obtain ⟨-, -, e0, e1, -⟩ := idx_facts t
  unfold iblk1
  rw [View.read_apply]
  show V c main_v15 _ = V c main_v15 _
  refine congrArg (V c main_v15) (funext fun a => Fin.ext ?_)
  match a with
  | ⟨0, _⟩ => show win1_1.index t (0 : Fin 2) * 5000 + 1 * (y 0).val = (k 0).val; rw [e0, hk0]; omega
  | ⟨1, _⟩ => show win1_1.index t (1 : Fin 2) * 1 + 1 * (y 1).val = (k 1).val; rw [e1, hk1]; omega

/-- The bias window holds the whole bias row at every point. -/
theorem bblock_apply (c : Dev nD) (t : Fin cfg1.N) (y : S1x64.Idx) :
    (iblk1 V c 2 t : Vec Ideal S1x64 .f32) y = (V c main_v27 : S1x64.Idx → EReal) y := by
  obtain ⟨-, -, -, -, e0, e1, -⟩ := idx_facts t
  unfold iblk1
  rw [View.read_apply]
  show V c main_v27 _ = V c main_v27 _
  refine congrArg (V c main_v27) (funext fun a => Fin.ext ?_)
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- What point t writes back is block t of the squashed table of the arrays the region finds. -/
theorem flushed_eq (c : Dev nD) (t : Fin cfg1.N) :
    (dat1 V c).flushed 3 t
      = ((cfg1.win 3).blk t).view.read (Elt Ideal) (squashed (V c main_v26) (V c main_v15) (V c main_v27)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨-, -, -, -, -, -, e0, e1⟩ := idx_facts t
  have hN : cfg1.N = 20 := N_1
  have ht : t.val < 20 := hN ▸ t.isLt
  funext y
  obtain ⟨p, q, rfl⟩ : ∃ (p : Fin 5000) (q : Fin 64), y = ix2 p q := ⟨y 0, y 1, eq_ix2 y⟩
  have hr : t.val * 5000 + p.val < 100000 := by have := p.isLt; omega
  have hemb : ((cfg1.win 3).blk t).view.emb (ix2 p q) = (ix2 (⟨t.val * 5000 + p.val, hr⟩ : Fin 100000) q : S100000x64.Idx) := by
    funext a; apply Fin.ext
    match a with
    | ⟨0, _⟩ => show win1_3.index t (0 : Fin 2) * 5000 + 1 * p.val = t.val * 5000 + p.val; rw [e0]; omega
    | ⟨1, _⟩ => show win1_3.index t (1 : Fin 2) * 64 + 1 * q.val = q.val; rw [e1]; omega
  rw [View.read_apply]
  show k1_pay1 (F := Ideal) (iblk1 V c 0 t) (iblk1 V c 1 t) (iblk1 V c 2 t) (ix2 p q) = squashed _ _ _ (((cfg1.win 3).blk t).view.emb (ix2 p q))
  rw [hemb, squashed_apply]
  refine (payload_apply (iblk1 V c 0 t) (iblk1 V c 1 t) (iblk1 V c 2 t) p q).trans ?_
  refine congrArg Ideal.logistic (congrArg₂ (· + ·) (congrArg₂ (· * ·) ?_ ?_) ?_)
  · exact ablock_apply V c t (ix2 p q) (ix2 ⟨t.val * 5000 + p.val, hr⟩ q) rfl rfl
  · exact dblock_apply V c t (ix2 p (0 : Fin 1)) (ix2 ⟨t.val * 5000 + p.val, hr⟩ (0 : Fin 1)) rfl rfl
  · exact bblock_apply V c t (ix2 (0 : Fin 1) q)

/-- An index of the result array is in point t's block iff its row is among the block's 5000 rows. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v28).slice (win1_3.rect t)).set ↔ _
  rw [View.set_slice_whole, Rect.mem_set_unit]
  exact Iff.rfl

/-- The 20 blocks tile the result array: row r is in the block of point r / 5000. -/
theorem cover (i : S100000x64.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  refine ⟨⟨(i 0).val / 5000, by rw [hN]; omega⟩, flush1_3 _, ?_⟩
  rw [mem_blk]
  obtain ⟨-, -, -, -, -, -, e0, e1⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e1]; omega

/-- The result array after the region: the squashed table of the arrays the region finds. -/
theorem final (c : Dev nD) :
    (dat1 V c).arrAt 3 cfg1.N = squashed (V c main_v26) (V c main_v15) (V c main_v27) :=
  (dat1 V c).arrAt_eq_of_cover 3 (squashed (V c main_v26) (V c main_v15) (V c main_v27)) (fun t _ => flushed_eq V c t) cover

end

end Cert.KernelIdeal.Region1

end
-- ==== Proof.KValue.lean ====
/-
  The kernel program's result as one function of its arguments.

  Following the contents of the buffers through the six segments: the first region finds x and the weights as launched
  and the factor column the host built from the edge list, and leaves the row-scaled product; the host then gathers
  that table's rows at the edges' sources and adds them at the edges' targets; the second region finds this aggregated
  table, the same factor column (the first region only read it) and the bias row, and leaves
      out (i, c) = logistic (agg (i, c) · dinv i + b c).
-/
import proofs.«176008_j59442347377115_2_alg».proof.Proof.KRun
import proofs.«176008_j59442347377115_2_alg».proof.Proof.KHost
import proofs.«176008_j59442347377115_2_alg».proof.Proof.Region0
import proofs.«176008_j59442347377115_2_alg».proof.Proof.Region1

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

/-- The program's value: the aggregated, row-scaled product, scaled again by the target's factor, plus the bias,
    through the logistic function. -/
def out (x : FVec Ideal S100000x128 .f32) (ei : IVec S2x1600000 32) (w : FVec Ideal S128x64 .f32) (b : FVec Ideal S64 .f32) :
    FVec Ideal S100000x64 .f32 :=
  Region1.squashed
    (HostVals.agg (Region0.scaled x w (HostVals.dcol (HostVals.dst ei))) (HostVals.src ei) (HostVals.dst ei))
    (HostVals.dcol (HostVals.dst ei)) (HostVals.brow b)

variable (m : (ℓ : Loc nD τ sig) → Buf (Elt Ideal) ℓ) (ρ : Dev nD → PrngReg)

/-! ## What the first region finds -/

theorem V3_arg0 (c : Dev nD) : V3 m ρ c main_arg0 = m ((c.tc : Thread nD τ).loc main_arg0) :=
  HostVals.pre_arg0 (W0 m ρ c)

theorem V3_arg2 (c : Dev nD) : V3 m ρ c main_arg2 = m ((c.tc : Thread nD τ).loc main_arg2) :=
  HostVals.pre_arg2 (W0 m ρ c)

theorem V3_dcol (c : Dev nD) : V3 m ρ c main_v15 = HostVals.dcol (HostVals.dst (m ((c.tc : Thread nD τ).loc main_arg1))) :=
  HostVals.pre_dcol (W0 m ρ c)

/-! ## What the first region leaves, and what it left alone -/

theorem W4_scaled (c : Dev nD) : W4 m ρ c (Proc.devRef .tc main_v16)
    = Region0.scaled (m ((c.tc : Thread nD τ).loc main_arg0)) (m ((c.tc : Thread nD τ).loc main_arg2))
        (HostVals.dcol (HostVals.dst (m ((c.tc : Thread nD τ).loc main_arg1)))) := by
  refine (W4_arr m ρ c 3).trans ((Region0.final (V3 m ρ) c).trans ?_)
  rw [V3_arg0 m ρ c, V3_arg2 m ρ c, V3_dcol m ρ c]

theorem W4_src (c : Dev nD) : W4 m ρ c (Proc.devRef .tc main_v3) = HostVals.src (m ((c.tc : Thread nD τ).loc main_arg1)) :=
  (W4_of_ne m ρ c main_v3 (by decide)).trans (HostVals.pre_src (W0 m ρ c))

theorem W4_dst (c : Dev nD) : W4 m ρ c (Proc.devRef .tc main_v6) = HostVals.dst (m ((c.tc : Thread nD τ).loc main_arg1)) :=
  (W4_of_ne m ρ c main_v6 (by decide)).trans (HostVals.pre_dst (W0 m ρ c))

theorem W4_dcol (c : Dev nD) : W4 m ρ c (Proc.devRef .tc main_v15)
    = HostVals.dcol (HostVals.dst (m ((c.tc : Thread nD τ).loc main_arg1))) :=
  (W4_arr m ρ c 2).trans ((((dat0 (V3 m ρ) c).arrAt_in 2 rfl _).trans (A_eq0 (V3 m ρ) c 2)).trans (V3_dcol m ρ c))

theorem W4_arg3 (c : Dev nD) : W4 m ρ c (Proc.devRef .tc main_arg3) = m ((c.tc : Thread nD τ).loc main_arg3) :=
  (W4_of_ne m ρ c main_arg3 (by decide)).trans (HostVals.pre_arg3 (W0 m ρ c))

/-! ## What the second region finds -/

theorem V5_agg (c : Dev nD) : V5 m ρ c main_v26
    = HostVals.agg (Region0.scaled (m ((c.tc : Thread nD τ).loc main_arg0)) (m ((c.tc : Thread nD τ).loc main_arg2))
          (HostVals.dcol (HostVals.dst (m ((c.tc : Thread nD τ).loc main_arg1)))))
        (HostVals.src (m ((c.tc : Thread nD τ).loc main_arg1))) (HostVals.dst (m ((c.tc : Thread nD τ).loc main_arg1))) := by
  refine (HostVals.mid_agg (W4 m ρ c)).trans ?_
  rw [W4_scaled m ρ c, W4_src m ρ c, W4_dst m ρ c]

theorem V5_dcol (c : Dev nD) : V5 m ρ c main_v15 = HostVals.dcol (HostVals.dst (m ((c.tc : Thread nD τ).loc main_arg1))) :=
  (HostVals.mid_dcol (W4 m ρ c)).trans (W4_dcol m ρ c)

theorem V5_brow (c : Dev nD) : V5 m ρ c main_v27 = HostVals.brow (m ((c.tc : Thread nD τ).loc main_arg3)) := by
  refine (HostVals.mid_brow (W4 m ρ c)).trans ?_
  rw [W4_arg3 m ρ c]

/-! ## The result -/

theorem W6_out (c : Dev nD) : W6 m ρ c (Proc.devRef .tc main_v28)
    = out (m ((c.tc : Thread nD τ).loc main_arg0)) (m ((c.tc : Thread nD τ).loc main_arg1))
        (m ((c.tc : Thread nD τ).loc main_arg2)) (m ((c.tc : Thread nD τ).loc main_arg3)) := by
  refine (W6_arr m ρ c 3).trans ((Region1.final (V5 m ρ) c).trans ?_)
  rw [V5_agg m ρ c, V5_dcol m ρ c, V5_brow m ρ c]
  rfl

/-- Every weakly fair execution terminates without a fault, the result array at the function out of the arguments and
    the arguments unchanged. -/
theorem run : θ_run defs (onTc (τ := τ) (main (F := Ideal))) ⟨m, fun _ => 0, ρ⟩ (fun r => ∀ c : Dev nD,
      r.2.mem ((c.tc : Thread nD τ).loc main_v28)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W6_out m ρ c), (h c).2⟩) (Named.run_named m ρ)

end Cert.KernelIdeal.Whole

end
-- ==== Proof.LibNonnegFactor.lean ====
/-
  Three small facts about extended reals as float values.

  * A factor that is nonnegative and not +∞ distributes over a finite sum of extended reals, whatever the terms
    (an infinite term included): multiplication by such a factor distributes over a sum of two extended reals, and the
    general case is an induction on the index set.
  * The f32 pattern 0x40000000 is the real number two, so it is such a factor.
  * A comparison "not equal" of an extended real with itself is false, in the ordered and in the unordered spelling:
    a guard `z ≠ z` never fires on the extended reals.
-/
import Idealize.ShloMosaic.PureOps.Ideal.Laws
import Idealize.ShloMosaic.Lib.IdealHost

noncomputable section

open scoped BigOperators

namespace Idealize.ShloMosaic.NonnegFactor

/-- A finite nonnegative factor distributes over a finite sum of extended reals. -/
theorem mul_sum_of_nonneg {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The f32 pattern `0x40000000` is the real number two. -/
theorem ofBits_two_f32 : Ideal.ofBits .f32 0x40000000#32 = ((2 : ℝ) : EReal) := by
  simp [Ideal.ofBits, Ideal.ieee, -EReal.coe_mul]; norm_num

theorem ofBits_two_f32_nonneg : (0 : EReal) ≤ Ideal.ofBits .f32 0x40000000#32 := by
  rw [ofBits_two_f32]; exact EReal.coe_nonneg.mpr (by norm_num)

theorem ofBits_two_f32_ne_top : Ideal.ofBits .f32 0x40000000#32 ≠ ⊤ := by
  rw [ofBits_two_f32]; exact EReal.coe_ne_top _

/-- An ordered "not equal" of a value with itself is false, -/
theorem cmp_one_self (z : EReal) : Ideal.cmp .one z z = 0#1 := by
  simp [Ideal.cmp]
/-- and so is the unordered one: no extended real differs from itself. -/
theorem cmp_une_self (z : EReal) : Ideal.cmp .une z z = 0#1 := by
  simp [Ideal.cmp]

end Idealize.ShloMosaic.NonnegFactor

end
-- ==== Proof.LibGcnNorm.lean ====
/-
  The normalisation factor of a graph convolution and the law that moves it across an aggregation, on the extended reals.

  A node's factor is 1/√deg where the degree is positive and 0 elsewhere (invSqrt: a select on "degree > 0" between the
  inverse root and the zero word). Whatever the degree is — a real, +∞ or −∞ — that factor is a nonnegative number below
  +∞, and such a factor distributes over any finite sum of extended reals. So scaling every message by the target's
  factor before the sum over a node's incoming edges is scaling the sum after it:
      (z + ∑ e, h e · u e) · v = z + ∑ e, h e · (u e · v)      for z the zero word and 0 ≤ v < +∞.
  The logistic function is by definition 1 / (1 + exp (−x)), the expression a host program spells out with one-words.
-/
import Idealize.ShloMosaic.PureOps.Ideal.Laws
import proofs.«176008_j59442347377115_2_alg».proof.Proof.LibNonnegFactor

noncomputable section

open scoped BigOperators

namespace Gcn

open Idealize.ShloMosaic

/-- The f32 word of +0.0, as an extended real. -/
abbrev zeroW : EReal := Ideal.ofBits .f32 0x00000000#32
/-- The f32 word of 1.0, as an extended real. -/
abbrev oneW : EReal := Ideal.ofBits .f32 0x3F800000#32

theorem zeroW_eq : zeroW = 0 := Ideal.ofBits_zero_f32

theorem oneW_eq : oneW = 1 := by
  simp [oneW, Ideal.ofBits, Ideal.ieee, -EReal.coe_mul]; norm_num

/-- A node's normalisation factor from its degree: 1/√d where d > 0, and 0 elsewhere. -/
def invSqrt (d : EReal) : EReal :=
  Scalar.select (Ideal.cmp .ogt d zeroW) (Ideal.rsqrt d) zeroW

/-- The factor is 1/√d or 0 according to the sign of the degree. -/
theorem invSqrt_eq (d : EReal) : invSqrt d = if 0 < d then Ideal.rsqrt d else 0 := by
  unfold invSqrt Scalar.select Ideal.cmp
  rw [zeroW_eq]
  by_cases h : (0 : EReal) < d
  · simp [h]
  · simp [h]

/-- The factor is never negative -/
theorem invSqrt_nonneg (d : EReal) : 0 ≤ invSqrt d := by
  rw [invSqrt_eq]
  split_ifs with h
  · induction d using EReal.rec with
    | bot => exact absurd h (by simp)
    | top => simp
    | coe r =>
      have hr : 0 < r := by exact_mod_cast h
      rw [Ideal.rsqrt_coe, if_neg (not_lt.mpr hr.le), if_neg hr.ne']
      exact EReal.coe_nonneg.mpr (inv_nonneg.mpr (Real.sqrt_nonneg r))
  · exact le_refl _

/-- and never +∞. -/
theorem invSqrt_ne_top (d : EReal) : invSqrt d ≠ ⊤ := by
  rw [invSqrt_eq]
  split_ifs with h
  · induction d using EReal.rec with
    | bot => exact absurd h (by simp)
    | top => simp
    | coe r =>
      have hr : 0 < r := by exact_mod_cast h
      rw [Ideal.rsqrt_coe, if_neg (not_lt.mpr hr.le), if_neg hr.ne']
      exact EReal.coe_ne_top _
  · exact EReal.zero_ne_top

/-- Scaling the aggregated sum by a nonnegative finite factor is scaling each message's weight by it. -/
theorem scale_sum {ι : Type*} (s : Finset ι) (h u : ι → EReal) (v : EReal) (hv0 : 0 ≤ v) (hvt : v ≠ ⊤) :
    (zeroW + ∑ e ∈ s, h e * u e) * v = zeroW + ∑ e ∈ s, h e * (u e * v) := by
  rw [zeroW_eq, zero_add, zero_add, mul_comm, NonnegFactor.mul_sum_of_nonneg s v hv0 hvt]
  refine Finset.sum_congr rfl fun e _ => ?_
  rw [mul_comm v, mul_assoc]

/-- The logistic function is the quotient a host program spells out with the one-words. -/
theorem logistic_eq (x : EReal) : Ideal.logistic x = Ideal.div oneW (oneW + Ideal.exp (-x)) := by
  rw [oneW_eq]; rfl

end Gcn

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.GcnAlgebra.lean ====
/-
  Which node an edge's index word names.

  Before a gather a negative index word is moved up by the number of nodes, 100000; the gather then reads the word as a
  signed integer and clamps it into 0 … 99999. A word that read signed IS a node n — as the target word of every edge
  added at n is — names n.
-/
import proofs.«176008_j59442347377115_2_alg».proof.Proof.LibGcnNorm
import proofs.«176008_j59442347377115_2_alg».proof.Proof.LibRowScatter

noncomputable section

namespace Gcn

open Idealize.ShloMosaic

/-- An index word moved up by the number of nodes when it is negative (what precedes a gather). -/
def wrapW (v : BitVec 32) : BitVec 32 :=
  Scalar.select (IntOp.cmpi .slt v 0#32) (IntOp.addi v 100000#32) v

/-- The node an index word names to a gather: the word read signed and clamped into 0 … N − 1. -/
def nodeOf (v : BitVec 32) : Fin 100000 := ⟨min v.toInt.toNat (100000 - 1), by omega⟩

/-- An index word that IS a node (read signed) names that node after the move and the clamp. -/
theorem nodeOf_wrapW (v : BitVec 32) (n : Fin 100000) (h : v.toInt = (n.val : ℤ)) : nodeOf (wrapW v) = n := by
  have hn := n.isLt
  have hw : wrapW v = v := RowScatter.wrapNeg_of_nonneg v 0#32 100000#32 (by decide) (by omega)
  rw [hw]
  apply Fin.ext
  show min v.toInt.toNat (100000 - 1) = n.val
  omega

end Gcn

end
-- ==== Proof.KRead.lean ====
/-
  The host-side pieces of the kernel's program, read at an entry.

  The factor column at row n is the factor of node n, which is 1/√(degree n) or 0: in either case a nonnegative number
  below +∞. The aggregated table at (n, c) is zero plus the sum, over the edges whose target index read as a signed
  integer is n, of the gathered table's entry (source node of the edge, c) — the source node being the edge's source
  index moved up by N when negative, read signed and clamped into range. The bias row at (0, c) is the bias at c.
-/
import proofs.«176008_j59442347377115_2_alg».proof.Proof.KHost
import proofs.«176008_j59442347377115_2_alg».proof.Proof.GcnAlgebra
import proofs.«176008_j59442347377115_2_alg».proof.Proof.LibRowScatter
import proofs.«176008_j59442347377115_2_alg».proof.Proof.LibKeepdims
import proofs.«176008_j59442347377115_2_alg».proof.Proof.LibColumn
import Idealize.ShloMosaic.Lib.ValueIdx
import Idealize.ShloMosaic.Lib.ValueLayout

set_option maxRecDepth 16384

noncomputable section

open scoped BigOperators

namespace Cert.KernelIdeal.HostVals

open Cert.KernelIdeal Cert.KernelIdeal.Gen
open Idealize.ShloMosaic Idealize.ShloMosaic.TcCoe Idealize.SL.Sem Idealize.ShloMosaic.ValueIdx

/-- Selecting the inverse root where a value is positive and zero elsewhere is the factor of that value, entry by entry. -/
theorem where_apply (g : FVec Ideal S100000 .f32) (n : Fin 100000) :
    (select (cmpf .ogt g (broadcastInDim S100000 ![] bcast_S_S100000 (constant (F := Ideal) S_ .f32 0x00000000#32)))
      (Host.rsqrt g)
      (broadcastInDim S100000 ![] bcast_S_S100000 (id (constant (F := Ideal) S_ .f32 0x00000000#32))) : FVec Ideal S100000 .f32) (ix1 n)
      = Gcn.invSqrt (g (ix1 n)) := rfl

/-- The factor of node n is the inverse root of its degree, or zero. -/
theorem dinv_apply (d : IVec S1700000 32) (n : Fin 100000) : dinv d (ix1 n) = Gcn.invSqrt (deg d (ix1 n)) :=
  where_apply (deg d) n

/-- The factor column at row n is the factor of node n. -/
theorem dcol_apply (d : IVec S1700000 32) (n : Fin 100000) : dcol d (ix2 n (0 : Fin 1)) = dinv d (ix1 n) :=
  shapeCast_a_a1_apply (dinv d) shapeCasts_S100000_S100000x1 n 0

theorem dcol_nonneg (d : IVec S1700000 32) (n : Fin 100000) : 0 ≤ dcol d (ix2 n (0 : Fin 1)) := by
  rw [dcol_apply, dinv_apply]; exact Gcn.invSqrt_nonneg _

theorem dcol_ne_top (d : IVec S1700000 32) (n : Fin 100000) : dcol d (ix2 n (0 : Fin 1)) ≠ ⊤ := by
  rw [dcol_apply, dinv_apply]; exact Gcn.invSqrt_ne_top _

/-- The bias row at (0, c) is the bias at c. -/
theorem brow_apply (b : FVec Ideal S64 .f32) (q : Fin 64) : brow b (ix2 (0 : Fin 1) q) = b (ix1 q) :=
  shapeCast_a_1a_apply b shapeCasts_S64_S1x64 0 q

/-- A moved-up index vector at an edge is the moved-up index word of the edge. -/
theorem wrap_apply (v : IVec S1700000 32) (e : Fin 1700000) : wrap v (ix1 e) = Gcn.wrapW (v (ix1 e)) := rfl

/-- The aggregated table at (n, c). -/
theorem agg_apply (h : FVec Ideal S100000x64 .f32) (s d : IVec S1700000 32) (n : Fin 100000) (q : Fin 64) :
    agg h s d (ix2 n q)
      = Gcn.zeroW + ∑ e ∈ Finset.univ.filter (fun e : Fin 1700000 => (d (ix1 e)).toInt = (n.val : ℤ)),
          h (ix2 (Gcn.nodeOf (Gcn.wrapW (s (ix1 e)))) q) := by
  have h1 : agg h s d (ix2 n q)
      = Host.scatterAdd (RowScatter.rowScatter 100000 1700000 64 scatter_S100000x64_S1700000x1_S1700000x64_1_0_0_1_wf)
          (broadcastInDim S100000x64 ![] bcast_S_S100000x64 (constant (F := Ideal) S_ .f32 0x00000000#32))
          (broadcastInDim S1700000x1 ![0] bcast_S1700000_S1700000x1_0 d)
          (Host.gather (RowScatter.rowGather 100000 1700000 64 gather_S100000x64_S1700000x1_S1700000x64_1_0_n_n_0_1_164_wf) h
            (broadcastInDim S1700000x1 ![0] bcast_S1700000_S1700000x1_0 (wrap s))) (ix2 n q) := rfl
  rw [h1, RowScatter.host_scatterAdd_rows_apply]
  have hcol : ∀ (v : IVec S1700000 32) (e : Fin 1700000),
      broadcastInDim S1700000x1 ![0] bcast_S1700000_S1700000x1_0 v (ix2 e (0 : Fin 1)) = v (ix1 e) :=
    fun v e => Keepdims.column_apply bcast_S1700000_S1700000x1_0 v e
  refine congrArg₂ (· + ·) rfl (Finset.sum_congr (Finset.filter_congr fun e _ => by rw [hcol]) fun e _ => ?_)
  rw [RowScatter.gather_rows_apply (by norm_num : 0 < 100000)]
  refine congrArg (fun r : Fin 100000 => h (ix2 r q)) (Fin.ext ?_)
  show min (broadcastInDim S1700000x1 ![0] bcast_S1700000_S1700000x1_0 (wrap s) (ix2 e (0 : Fin 1))).toInt.toNat (100000 - 1)
    = min (Gcn.wrapW (s (ix1 e))).toInt.toNat (100000 - 1)
  rw [hcol, wrap_apply]

end Cert.KernelIdeal.HostVals

end
-- ==== Proof.RRead.lean ====
/-
  The reference program's result, read at an entry.

  At (n, c) the result is 1 / (1 + exp (−logit)), the logit being zero plus the sum, over the edges whose target index
  read as a signed integer is n, of the edge's message at column c, plus the bias at c. An edge's message at column c is
  the product's entry (source node, c) — row of x times column of the weights — times the edge's weight, the product of
  the factors of its two end nodes; an end node is the edge's index moved up by N when negative, read signed and clamped
  into range.
-/
import proofs.«176008_j59442347377115_2_alg».proof.Proof.RTerm
import proofs.«176008_j59442347377115_2_alg».proof.Proof.GcnAlgebra
import proofs.«176008_j59442347377115_2_alg».proof.Proof.LibRowScatter
import proofs.«176008_j59442347377115_2_alg».proof.Proof.LibKeepdims
import proofs.«176008_j59442347377115_2_alg».proof.Proof.LibDenseVec
import Idealize.ShloMosaic.Lib.ValueIdx

set_option maxRecDepth 16384

noncomputable section

open scoped BigOperators

namespace Cert.ReferenceIdeal.Term

open Cert.ReferenceIdeal Cert.ReferenceIdeal.Gen
open Idealize.ShloMosaic Idealize.ShloMosaic.TcCoe Idealize.SL.Sem Idealize.ShloMosaic.ValueIdx

/-- The reference's product contracts x's second axis with the weights' first. -/
theorem plain : DenseVec.Plain (n := 100000) (K := 128) (N := 64) dot_S100000x128_S128x64_S100000x64_1_0_0_1_n_n where
  rank := rfl
  size := fun _ => rfl
  lhs := rfl
  rhs := rfl
  row := fun j q => by
    unfold DotDims.lhsIdx
    rw [dif_neg (show ¬(0 : Fin S100000x128.rank) ∈ dot_S100000x128_S128x64_S100000x64_1_0_0_1_n_n.lhsBatch by decide),
      dif_pos (show (0 : Fin S100000x128.rank) ∈ dot_S100000x128_S128x64_S100000x64_1_0_0_1_n_n.lhsNonContracting by decide)]
    rfl
  col := fun j q => by
    unfold DotDims.rhsIdx
    rw [dif_neg (show ¬(1 : Fin S128x64.rank) ∈ dot_S100000x128_S128x64_S100000x64_1_0_0_1_n_n.rhsBatch by decide),
      dif_pos (show (1 : Fin S128x64.rank) ∈ dot_S100000x128_S128x64_S100000x64_1_0_0_1_n_n.rhsNonContracting by decide)]
    rfl

/-- An index vector stood up as a column reads, at edge e, the vector's entry. -/
theorem col_apply (v : IVec S1700000 32) (e : Fin 1700000) :
    broadcastInDim S1700000x1 ![0] bcast_S1700000_S1700000x1_0 v (ix2 e (0 : Fin 1)) = v (ix1 e) :=
  Keepdims.column_apply bcast_S1700000_S1700000x1_0 v e

/-- A moved-up index vector at an edge is the moved-up index word of the edge. -/
theorem wrap_apply (v : IVec S1700000 32) (e : Fin 1700000) : wrap v (ix1 e) = Gcn.wrapW (v (ix1 e)) := rfl

/-- Selecting the inverse root where a value is positive and zero elsewhere is the factor of that value, entry by entry. -/
theorem where_apply (g : FVec Ideal S100000 .f32) (n : Fin 100000) :
    (select (cmpf .ogt g (broadcastInDim S100000 ![] bcast_S_S100000 (constant (F := Ideal) S_ .f32 0x00000000#32)))
      (Host.rsqrt g)
      (broadcastInDim S100000 ![] bcast_S_S100000 (id (constant (F := Ideal) S_ .f32 0x00000000#32))) : FVec Ideal S100000 .f32) (ix1 n)
      = Gcn.invSqrt (g (ix1 n)) := rfl

/-- The factor of node n is the inverse root of its degree, or zero. -/
theorem dinv_apply (d : IVec S1700000 32) (n : Fin 100000) : dinv d (ix1 n) = Gcn.invSqrt (deg d (ix1 n)) :=
  where_apply (deg d) n

/-- A factor gathered at an index vector reads, at edge e, the factor of the node the edge's index names. -/
theorem gather_dinv_apply (d v : IVec S1700000 32) (e : Fin 1700000) :
    Host.gather gather_S100000_S1700000x1_S1700000_n_0_n_n_0_1_1 (dinv d)
        (broadcastInDim S1700000x1 ![0] bcast_S1700000_S1700000x1_0 (wrap v)) (ix1 e)
      = dinv d (ix1 (Gcn.nodeOf (Gcn.wrapW (v (ix1 e))))) := by
  have h1 : Host.gather gather_S100000_S1700000x1_S1700000_n_0_n_n_0_1_1 (dinv d)
        (broadcastInDim S1700000x1 ![0] bcast_S1700000_S1700000x1_0 (wrap v)) (ix1 e)
      = Host.gather (RowScatter.vecGather 100000 1700000 gather_S100000_S1700000x1_S1700000_n_0_n_n_0_1_1_wf) (dinv d)
        (broadcastInDim S1700000x1 ![0] bcast_S1700000_S1700000x1_0 (wrap v)) (ix1 e) := rfl
  rw [h1, RowScatter.gather_vec_apply (by norm_num : 0 < 100000)]
  refine congrArg (fun r : Fin 100000 => dinv d (ix1 r)) (Fin.ext ?_)
  show min (broadcastInDim S1700000x1 ![0] bcast_S1700000_S1700000x1_0 (wrap v) (ix2 e (0 : Fin 1))).toInt.toNat (100000 - 1)
    = min (Gcn.wrapW (v (ix1 e))).toInt.toNat (100000 - 1)
  rw [col_apply, wrap_apply]

/-- An edge's weight: the product of its end nodes' factors. -/
theorem norm_apply (s d : IVec S1700000 32) (e : Fin 1700000) :
    norm s d (ix1 e) = dinv d (ix1 (Gcn.nodeOf (Gcn.wrapW (s (ix1 e))))) * dinv d (ix1 (Gcn.nodeOf (Gcn.wrapW (d (ix1 e))))) := by
  unfold norm
  refine (mulf_apply _ _ _).trans ?_
  rw [gather_dinv_apply, gather_dinv_apply]

/-- An edge's message at column q. -/
theorem msgs_apply (x : FVec Ideal S100000x128 .f32) (w : FVec Ideal S128x64 .f32) (s d : IVec S1700000 32)
    (e : Fin 1700000) (q : Fin 64) :
    msgs x w s d (ix2 e q)
      = (∑ k : Fin 128, x (ix2 (Gcn.nodeOf (Gcn.wrapW (s (ix1 e)))) k) * w (ix2 k q)) * norm s d (ix1 e) := by
  unfold msgs
  refine (mulf_apply _ _ _).trans ?_
  refine congrArg₂ (· * ·) ?_ ?_
  · have h1 : Host.gather gather_S100000x64_S1700000x1_S1700000x64_1_0_n_n_0_1_164
          (Host.dotGeneral dot_S100000x128_S128x64_S100000x64_1_0_0_1_n_n none x w)
          (broadcastInDim S1700000x1 ![0] bcast_S1700000_S1700000x1_0 (wrap s)) (ix2 e q)
        = Host.gather (RowScatter.rowGather 100000 1700000 64 gather_S100000x64_S1700000x1_S1700000x64_1_0_n_n_0_1_164_wf)
          (Host.dotGeneral dot_S100000x128_S128x64_S100000x64_1_0_0_1_n_n none x w)
          (broadcastInDim S1700000x1 ![0] bcast_S1700000_S1700000x1_0 (wrap s)) (ix2 e q) := rfl
    rw [h1, RowScatter.gather_rows_apply (by norm_num : 0 < 100000)]
    have hnode : (⟨min (broadcastInDim S1700000x1 ![0] bcast_S1700000_S1700000x1_0 (wrap s) (ix2 e (0 : Fin 1))).toInt.toNat (100000 - 1),
        by omega⟩ : Fin 100000) = Gcn.nodeOf (Gcn.wrapW (s (ix1 e))) := by
      apply Fin.ext
      show min (broadcastInDim S1700000x1 ![0] bcast_S1700000_S1700000x1_0 (wrap s) (ix2 e (0 : Fin 1))).toInt.toNat (100000 - 1)
        = min (Gcn.wrapW (s (ix1 e))).toInt.toNat (100000 - 1)
      rw [col_apply, wrap_apply]
    refine (congrArg (fun r : Fin 100000 => Host.dotGeneral dot_S100000x128_S128x64_S100000x64_1_0_0_1_n_n none x w (ix2 r q)) hnode).trans ?_
    exact DenseVec.dotGeneral_ix2 plain none x w _ q
  · exact Keepdims.rows_apply bcast_S1700000_S1700000x1_0 bcast_S1700000x1_S1700000x64_0_1 (norm s d) e q

/-- The logit at (n, q). -/
theorem logits_apply (x : FVec Ideal S100000x128 .f32) (w : FVec Ideal S128x64 .f32) (b : FVec Ideal S64 .f32)
    (s d : IVec S1700000 32) (n : Fin 100000) (q : Fin 64) :
    logits x w b s d (ix2 n q)
      = (Gcn.zeroW + ∑ e ∈ Finset.univ.filter (fun e : Fin 1700000 => (d (ix1 e)).toInt = (n.val : ℤ)), msgs x w s d (ix2 e q))
        + b (ix1 q) := by
  unfold logits
  refine (addf_apply _ _ _).trans ?_
  refine congrArg₂ (· + ·) ?_ ?_
  · have h1 : Host.scatterAdd scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0 d) (msgs x w s d) (ix2 n q)
        = Host.scatterAdd (RowScatter.rowScatter 100000 1700000 64 scatter_S100000x64_S1700000x1_S1700000x64_1_0_0_1_wf)
          (broadcastInDim S100000x64 ![] bcast_S_S100000x64 (constant (F := Ideal) S_ .f32 0x00000000#32))
          (broadcastInDim S1700000x1 ![0] bcast_S1700000_S1700000x1_0 d) (msgs x w s d) (ix2 n q) := rfl
    rw [h1, RowScatter.host_scatterAdd_rows_apply]
    refine congrArg₂ (· + ·) rfl (Finset.sum_congr (Finset.filter_congr fun e _ => ?_) fun _ _ => rfl)
    rw [col_apply]
  · exact Keepdims.cols_apply bcast_S64_S1x64_1 bcast_S1x64_S100000x64_0_1 b n q

/-- One over one plus the exponential of the negated table, entry by entry. -/
theorem quotient_apply (z : FVec Ideal S100000x64 .f32) (j : S100000x64.Idx) :
    (Host.divf (broadcastInDim S100000x64 ![] bcast_S_S100000x64 (constant (F := Ideal) S_ .f32 0x3F800000#32))
      (addf (broadcastInDim S100000x64 ![] bcast_S_S100000x64 (constant (F := Ideal) S_ .f32 0x3F800000#32))
        (Host.exp (Host.negf z))) : FVec Ideal S100000x64 .f32) j
      = Ideal.div Gcn.oneW (Gcn.oneW + Ideal.exp (-(z j))) := rfl

/-- The result at (n, q). -/
theorem out_apply (x : FVec Ideal S100000x128 .f32) (ei : IVec S2x1600000 32) (w : FVec Ideal S128x64 .f32)
    (b : FVec Ideal S64 .f32) (n : Fin 100000) (q : Fin 64) :
    out x ei w b (ix2 n q)
      = Ideal.div Gcn.oneW (Gcn.oneW + Ideal.exp (-(logits x w b (src ei) (dst ei) (ix2 n q)))) :=
  quotient_apply (logits x w b (src ei) (dst ei)) (ix2 n q)

end Cert.ReferenceIdeal.Term

end
-- ==== Proof.Bridge.lean ====
/-
  The two programs compute one function.

  Entry (n, c) of the kernel program's result is
      logistic ((0 + ∑ over edges e into n of (x·w) (src e, c) · dinv (src e)) · dinv n + b c),
  the normalisation factor of the source applied inside the first region and that of the target in the second, and entry
  (n, c) of the reference's is
      1 / (1 + exp (−((0 + ∑ over edges e into n of (x·w) (src e, c) · (dinv (src e) · dinv (dst e))) + b c))).
  Both programs build the same index vectors and the same factors from the edge list. For an edge counted at n the
  target index read signed IS n, so the node the reference's gather reads the target's factor at is n. The target's
  factor is nonnegative and below +∞ whatever the degree, so it moves across the sum; the logistic function is the
  host's quotient by definition.
-/
import proofs.«176008_j59442347377115_2_alg».proof.Proof.KValue
import proofs.«176008_j59442347377115_2_alg».proof.Proof.KRead
import proofs.«176008_j59442347377115_2_alg».proof.Proof.RRead

set_option maxRecDepth 16384

noncomputable section

open scoped BigOperators

namespace Cert.Bridge

open Idealize.ShloMosaic Idealize.ShloMosaic.ValueIdx

/-- Both programs build the sources, -/
theorem src_eq (ei : IVec Cert.KernelIdeal.S2x1600000 32) :
    Cert.ReferenceIdeal.Term.src ei = Cert.KernelIdeal.HostVals.src ei := rfl

/-- the targets -/
theorem dst_eq (ei : IVec Cert.KernelIdeal.S2x1600000 32) :
    Cert.ReferenceIdeal.Term.dst ei = Cert.KernelIdeal.HostVals.dst ei := rfl

/-- and the factors by the same operations. -/
theorem dinv_eq (d : IVec Cert.KernelIdeal.S1700000 32) :
    Cert.ReferenceIdeal.Term.dinv d = Cert.KernelIdeal.HostVals.dinv d := rfl

/-- The kernel program's value is the reference's, entry by entry. -/
theorem out_eq (x : FVec Ideal Cert.KernelIdeal.S100000x128 .f32) (ei : IVec Cert.KernelIdeal.S2x1600000 32)
    (w : FVec Ideal Cert.KernelIdeal.S128x64 .f32) (b : FVec Ideal Cert.KernelIdeal.S64 .f32) :
    Cert.KernelIdeal.Whole.out x ei w b = Cert.ReferenceIdeal.Term.out x ei w b := by
  funext j
  obtain ⟨n, q, rfl⟩ : ∃ (n : Fin 100000) (q : Fin 64), j = ix2 n q := ⟨j 0, j 1, eq_ix2 j⟩
  rw [Cert.ReferenceIdeal.Term.out_apply, Cert.ReferenceIdeal.Term.logits_apply, src_eq ei, dst_eq ei]
  show Cert.KernelIdeal.Region1.squashed
      (Cert.KernelIdeal.HostVals.agg (Cert.KernelIdeal.Region0.scaled x w (Cert.KernelIdeal.HostVals.dcol (Cert.KernelIdeal.HostVals.dst ei)))
        (Cert.KernelIdeal.HostVals.src ei) (Cert.KernelIdeal.HostVals.dst ei))
      (Cert.KernelIdeal.HostVals.dcol (Cert.KernelIdeal.HostVals.dst ei)) (Cert.KernelIdeal.HostVals.brow b) (ix2 n q) = _
  rw [Cert.KernelIdeal.Region1.squashed_apply, Cert.KernelIdeal.HostVals.agg_apply, Cert.KernelIdeal.HostVals.brow_apply,
    Gcn.logistic_eq]
  refine congrArg (fun t => Ideal.div Gcn.oneW (Gcn.oneW + Ideal.exp (-(t + b (ix1 q))))) ?_
  simp only [Cert.KernelIdeal.Region0.scaled_apply]
  have key := Gcn.scale_sum
    (Finset.univ.filter (fun e : Fin 1700000 => (Cert.KernelIdeal.HostVals.dst ei (ix1 e)).toInt = (n.val : ℤ)))
    (fun e => ∑ k : Fin 128, x (ix2 (Gcn.nodeOf (Gcn.wrapW (Cert.KernelIdeal.HostVals.src ei (ix1 e)))) k) * w (ix2 k q))
    (fun e => Cert.KernelIdeal.HostVals.dcol (Cert.KernelIdeal.HostVals.dst ei)
      (ix2 (Gcn.nodeOf (Gcn.wrapW (Cert.KernelIdeal.HostVals.src ei (ix1 e)))) (0 : Fin 1)))
    (Cert.KernelIdeal.HostVals.dcol (Cert.KernelIdeal.HostVals.dst ei) (ix2 n (0 : Fin 1)))
    (Cert.KernelIdeal.HostVals.dcol_nonneg _ n) (Cert.KernelIdeal.HostVals.dcol_ne_top _ n)
  refine key.trans ?_
  refine congrArg₂ (· + ·) rfl (Finset.sum_congr rfl fun e he => ?_)
  have hn : Gcn.nodeOf (Gcn.wrapW (Cert.KernelIdeal.HostVals.dst ei (ix1 e))) = n :=
    Gcn.nodeOf_wrapW _ n (Finset.mem_filter.mp he).2
  rw [Cert.ReferenceIdeal.Term.msgs_apply, Cert.ReferenceIdeal.Term.norm_apply, dinv_eq, hn]
  show _ * (Cert.KernelIdeal.HostVals.dcol _ _ * Cert.KernelIdeal.HostVals.dcol _ _) = _
  rw [Cert.KernelIdeal.HostVals.dcol_apply, Cert.KernelIdeal.HostVals.dcol_apply]

end Cert.Bridge

end
-- ==== Proof.lean ====
/-
  A graph convolution with symmetric normalisation followed by a logistic function, computed two ways.

  The kernel's program scales each row of x·w by its node's factor dinv = 1/√deg inside a first pipelined region, lets
  the host gather the scaled rows at the edges' sources and add them at the edges' targets, and in a second pipelined
  region scales each aggregated row by the target's factor, adds the bias and applies the logistic function. The
  reference scales every edge's message by dinv(source)·dinv(target) before adding it at the target, adds the bias and
  applies 1 / (1 + exp (−·)). On the extended reals the two agree entry by entry: the target's factor is the same for
  every edge added at one node, it is nonnegative and below +∞ whatever the degree, and such a factor moves across a
  finite sum. The three frames are the generated frame runs (the reference's its run with the result dropped); the
  idealization rewrote nothing.
-/
import proofs.«176008_j59442347377115_2_alg».proof.Defs
import proofs.«176008_j59442347377115_2_alg».proof.Proof.Gen.Kernel
import proofs.«176008_j59442347377115_2_alg».proof.Proof.Gen.Kernel.Skeleton
import proofs.«176008_j59442347377115_2_alg».proof.Proof.Gen.Kernel.Launch
import proofs.«176008_j59442347377115_2_alg».proof.Proof.Gen.Kernel.Points
import proofs.«176008_j59442347377115_2_alg».proof.Proof.Gen.Kernel.Frame
import proofs.«176008_j59442347377115_2_alg».proof.Proof.Gen.KernelIdeal
import proofs.«176008_j59442347377115_2_alg».proof.Proof.Gen.KernelIdeal.Skeleton
import proofs.«176008_j59442347377115_2_alg».proof.Proof.Gen.KernelIdeal.Launch
import proofs.«176008_j59442347377115_2_alg».proof.Proof.Gen.KernelIdeal.Points
import proofs.«176008_j59442347377115_2_alg».proof.Proof.Gen.KernelIdeal.Frame
import proofs.«176008_j59442347377115_2_alg».proof.Proof.Gen.ReferenceIdeal
import proofs.«176008_j59442347377115_2_alg».proof.Proof.Gen.Pre_finite_inputs
import proofs.«176008_j59442347377115_2_alg».proof.Proof.RefRun
import proofs.«176008_j59442347377115_2_alg».proof.Proof.RTerm
import proofs.«176008_j59442347377115_2_alg».proof.Proof.KValue
import proofs.«176008_j59442347377115_2_alg».proof.Proof.Bridge
import Idealize.ShloMosaic.Adequacy
import Idealize.ShloMosaic.Init

noncomputable section

namespace Cert.Proof

open Idealize.ShloMosaic Idealize.SL.Sem Cert.Kernel

/-- The word-level program runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array. -/
theorem algebraic : Cert.algebraic_KernelIdeal_ReferenceIdeal := by
  intro m ρ m' ρ' _ hagree
  refine ⟨fun c => Cert.KernelIdeal.Whole.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Term.res_eq, (hagree c).1, (hagree c).2.1, (hagree c).2.2.1, (hagree c).2.2.2]
  exact (Cert.Bridge.out_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
